-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x300 : Shape := ⟨2, ![100000, 300]⟩
abbrev S2x1600000 : Shape := ⟨2, ![2, 1600000]⟩
abbrev S2048 : Shape := ⟨1, ![2048]⟩
abbrev S300x128 : Shape := ⟨2, ![300, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩

class Facts : Prop where
  bcast_S_S100000x300 : S_.BroadcastsInDim S100000x300 (![] : Fin 0 → Fin S100000x300.rank)
  reducesTo_S100000x300_S_d0_1 : S100000x300.ReducesTo [0, 1] S_
  h_S_ : 0 < S_.numel
  bcast_S_S300x128 : S_.BroadcastsInDim S300x128 (![] : Fin 0 → Fin S300x128.rank)
  reducesTo_S300x128_S_d0_1 : S300x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg6 : FVec F S128 .f32) (main_arg7 : FVec F S128x3 .f32) (main_arg8 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x3 .f32 := Host.absf main_arg7
  let main_cst_8 : FVec F S_ .f32 := constant S_ .f32 0x7F800000#32
  let main_v25 : FVec F S128x3 .f32 := broadcastInDim S128x3 ![] bcast_S_S128x3 main_cst_8
  let main_v26 : IVec S128x3 1 := cmpf .olt main_v24 main_v25
  let main_c_9 : IVec S_ 1 := constantI S_ 1 1#1
  let main_v27 : IVec S_ 1 := (fun x v => Host.reduce IntOp.andi x v reducesTo_S128x3_S_d0_1 h_S_) main_v26 main_c_9
  let main_v28 : IVec S_ 1 := andi main_v23 main_v27
  let main_v29 : FVec F S3 .f32 := Host.absf main_arg8
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S100000x300 .f32) (main_arg1 : IVec S2x1600000 32) (main_arg2 : IVec S2048 32) (main_arg3 : FVec F S300x128 .f32) (main_arg4 : FVec F S128 .f32) (main_arg5 : FVec F S128x128 .f32) (main_arg6 : FVec F S128 .f32) (main_arg7 : FVec F S128x3 .f32) (main_arg8 : FVec F S3 .f32) : IVec S_ 1 :=
  let main_v0 : FVec F S100000x300 .f32 := Host.absf main_arg0
  let main_cst : FVec F S_ .f32 := constant S_ .f32 0x7F800000#32
  let main_v1 : FVec F S100000x300 .f32 := broadcastInDim S100000x300 ![] bcast_S_S100000x300 main_cst
  let main_v2 : IVec S100000x300 1 := cmpf .olt main_v0 main_v1
  let main_c : IVec S_ 1 := constantI S_ 1 1#1
  let main_v3 : IVec S_ 1 := (fun x v => Host.reduce IntOp.andi x v reducesTo_S100000x300_S_d0_1 h_S_) main_v2 main_c
  let main_v4 : FVec F S300x128 .f32 := Host.absf main_arg3
  let main_cst_0 : FVec F S_ .f32 := constant S_ .f32 0x7F800000#32
  let main_v5 : FVec F S300x128 .f32 := broadcastInDim S300x128 ![] bcast_S_S300x128 main_cst_0
  let main_v6 : IVec S300x128 1 := cmpf .olt main_v4 main_v5
  let main_c_1 : IVec S_ 1 := constantI S_ 1 1#1
  let main_v7 : IVec S_ 1 := (fun x v => Host.reduce IntOp.andi x v reducesTo_S300x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x300 : Shape := ⟨2, ![100000, 300]⟩
abbrev S2x1600000 : Shape := ⟨2, ![2, 1600000]⟩
abbrev S2048 : Shape := ⟨1, ![2048]⟩
abbrev S300x128 : Shape := ⟨2, ![300, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x300 : Shape := ⟨2, ![5000, 300]⟩
abbrev S5000x128 : Shape := ⟨2, ![5000, 128]⟩
abbrev S1700000x128 : Shape := ⟨2, ![1700000, 128]⟩
abbrev S1x128 : Shape := ⟨2, ![1, 128]⟩
abbrev S2048x1 : Shape := ⟨2, ![2048, 1]⟩
abbrev S2048x128 : Shape := ⟨2, ![2048, 128]⟩
abbrev S2048x3 : Shape := ⟨2, ![2048, 3]⟩
abbrev S1x3 : Shape := ⟨2, ![1, 3]⟩

abbrev nBuf : Space → Nat
  | .hbm => 105
  | .vmem => 13
  | .smem => 0
  | _ => 0

abbrev bufTy : (tb : Table) → Fin (tcTables nBuf tb) → BufTy
  | .hbm, ⟨0, _⟩ => ⟨S100000x300, .f32⟩
  | .hbm, ⟨1, _⟩ => ⟨S2x1600000, .i32⟩
  | .hbm, ⟨2, _⟩ => ⟨S2048, .i32⟩
  | .hbm, ⟨3, _⟩ => ⟨S300x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x3, .f32⟩
  | .hbm, ⟨8, _⟩ => ⟨S3, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x1, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .i32⟩
  | .hbm, ⟨93, _⟩ => ⟨S2048, .i32⟩
  | .hbm, ⟨94, _⟩ => ⟨S2048, .i1⟩
  | .hbm, ⟨95, _⟩ => ⟨S_, .i32⟩
  | .hbm, ⟨96, _⟩ => ⟨S2048, .i32⟩
  | .hbm, ⟨97, _⟩ => ⟨S2048, .i32⟩
  | .hbm, ⟨98, _⟩ => ⟨S2048, .i32⟩
  | .hbm, ⟨99, _⟩ => ⟨S2048x1, .i32⟩
  | .hbm, ⟨100, _⟩ => ⟨S2048x128, .f32⟩
  | .hbm, ⟨101, _⟩ => ⟨S2048x3, .f32⟩
  | .hbm, ⟨102, _⟩ => ⟨S1x3, .f32⟩
  | .hbm, ⟨103, _⟩ => ⟨S2048x3, .f32⟩
  | .hbm, ⟨104, _⟩ => ⟨S2048x3, .f32⟩
  | .local _ .vmem, ⟨0, _⟩ => ⟨S5000x300, .f32⟩
  | .local _ .vmem, ⟨1, _⟩ => ⟨S5000x300, .f32⟩
  | .local _ .vmem, ⟨2, _⟩ => ⟨S300x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S2048x128, .f32⟩
  | .local _ .vmem, ⟨11, _⟩ => ⟨S128x3, .f32⟩
  | .local _ .vmem, ⟨12, _⟩ => ⟨S2048x3, .f32⟩
  | _, _ => ⟨S100000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_12 : Ref sig .tc := ⟨.hbm, 92, rfl⟩
abbrev main_v65 : Ref sig .tc := ⟨.hbm, 93, rfl⟩
abbrev main_v66 : Ref sig .tc := ⟨.hbm, 94, rfl⟩
abbrev main_c_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S2048x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S128x3 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2048x3 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x300_S5000x300_0_0 : ∀ a, (![0, 0] : Fin 2 → Nat) a + S5000x300.size a ≤ S5000x300.size a
  h_S5000x300 : 0 < S5000x300.numel
  bitsLt_bf16_f32 : FTy.bits .bf16 < FTy.bits .f32
  inb_S300x128_S300x128_0_0 : ∀ a, (![0, 0] : Fin 2 → Nat) a + S300x128.size a ≤ S300x128.size a
  h_S300x128 : 0 < S300x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S_S2048 : S_.BroadcastsInDim S2048 (![] : Fin 0 → Fin S2048.rank)
  bcast_S2048_S2048x1_0 : S2048.BroadcastsInDim S2048x1 (![0] : Fin 1 → Fin S2048x1.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x3_S128x3_0_0 : ∀ a, (![0, 0] : Fin 2 → Nat) a + S128x3.size a ≤ S128x3.size a
  h_S128x3 : 0 < S128x3.numel
  inb_S2048x3_S2048x3_0_0 : ∀ a, (![0, 0] : Fin 2 → Nat) a + S2048x3.size a ≤ S2048x3.size a
  h_S2048x3 : 0 < S2048x3.numel
  bcast_S3_S1x3_1 : S3.BroadcastsInDim S1x3 (![1] : Fin 1 → Fin S1x3.rank)
  bcast_S1x3_S2048x3_0_1 : S1x3.BroadcastsInDim S2048x3 (![0, 1] : Fin 2 → Fin S2048x3.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x300_S300x128_S5000x128_1_0_0_1_n_n_wf : DotDims.WF S5000x300 S300x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  gather_S100000x128_S2048x1_S2048x128_1_0_n_n_0_1_1128_wf : GatherDims.WF S100000x128 S2048x1 S2048x128 [1] [0] [] [0] [] 1 ![1, 128]
  dot_S2048x128_S128x3_S2048x3_1_0_0_1_n_n_wf : DotDims.WF S2048x128 S128x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x300.size a ≤ S100000x300.size a
  hwx0_0 : ∀ i : grid0.Coords, EltTy.bits .f32 = 32 ∨ (Rect.block (s := S100000x300) S5000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x128.size a ≤ S300x128.size a
  hwx0_1 : ∀ i : grid0.Coords, EltTy.bits .f32 = 32 ∨ (Rect.block (s := S300x128) S300x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S2048x128.size a
  hwx2_0 : ∀ i : grid2.Coords, EltTy.bits .f32 = 32 ∨ (Rect.block (s := S2048x128) S2048x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x3.size a ≤ S128x3.size a
  hwx2_1 : ∀ i : grid2.Coords, EltTy.bits .f32 = 32 ∨ (Rect.block (s := S128x3) S128x3.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S2048x3.size a ≤ S2048x3.size a
  hwx2_2 : ∀ i : grid2.Coords, EltTy.bits .f32 = 32 ∨ (Rect.block (s := S2048x3) S2048x3.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x300_S300x128_S5000x128_1_0_0_1_n_n : DotDims S5000x300 S300x128 S5000x128 where
  lhsContracting := [1]
  rhsContracting := [0]
  lhsNonContracting := [0]
  rhsNonContracting := [1]
  lhsBatch := []
  rhsBatch := []
  wf := dot_S5000x300_S300x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S2048x1_S2048x128_1_0_n_n_0_1_1128 : GatherDims S100000x128 S2048x1 S2048x128 where
  offsetDims := [1]
  collapsedSliceDims := [0]
  operandBatchingDims := []
  startIndicesBatchingDims := []
  startIndexMap := [0]
  indexVectorDim := 1
  sliceSizes := ![1, 128]
  wf := gather_S100000x128_S2048x1_S2048x128_1_0_n_n_0_1_1128_wf
def dot_S2048x128_S128x3_S2048x3_1_0_0_1_n_n : DotDims S2048x128 S128x3 S2048x3 where
  lhsContracting := [1]
  rhsContracting := [0]
  lhsNonContracting := [0]
  rhsNonContracting := [1]
  lhsBatch := []
  rhsBatch := []
  wf := dot_S2048x128_S128x3_S2048x3_1_0_0_1_n_n_wf

abbrev win0_0 : Pipeline.Window sig grid0 :=
  Pipeline.Window.ofSpec (Memref.whole main_arg0) S5000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S300x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v71) S2048x128.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x3.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S2048x3.size cc2_transform_2 reads2_2 true false 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x300 : Shape := ⟨2, ![100000, 300]⟩
abbrev S2x1600000 : Shape := ⟨2, ![2, 1600000]⟩
abbrev S2048 : Shape := ⟨1, ![2048]⟩
abbrev S300x128 : Shape := ⟨2, ![300, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S2048x1 : Shape := ⟨2, ![2048, 1]⟩
abbrev S2048x128 : Shape := ⟨2, ![2048, 128]⟩
abbrev S2048x3 : Shape := ⟨2, ![2048, 3]⟩
abbrev S1x3 : Shape := ⟨2, ![1, 3]⟩

abbrev nBuf : Space → Nat
  | .hbm => 105
  | .vmem => 0
  | .smem => 0
  | _ => 0

abbrev bufTy : (tb : Table) → Fin (tcTables nBuf tb) → BufTy
  | .hbm, ⟨0, _⟩ => ⟨S100000x300, .f32⟩
  | .hbm, ⟨1, _⟩ => ⟨S2x1600000, .i32⟩
  | .hbm, ⟨2, _⟩ => ⟨S2048, .i32⟩
  | .hbm, ⟨3, _⟩ => ⟨S300x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x3, .f32⟩
  | .hbm, ⟨8, _⟩ => ⟨S3, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x1, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .i32⟩
  | .hbm, ⟨93, _⟩ => ⟨S2048, .i32⟩
  | .hbm, ⟨94, _⟩ => ⟨S2048, .i1⟩
  | .hbm, ⟨95, _⟩ => ⟨S_, .i32⟩
  | .hbm, ⟨96, _⟩ => ⟨S2048, .i32⟩
  | .hbm, ⟨97, _⟩ => ⟨S2048, .i32⟩
  | .hbm, ⟨98, _⟩ => ⟨S2048, .i32⟩
  | .hbm, ⟨99, _⟩ => ⟨S2048x1, .i32⟩
  | .hbm, ⟨100, _⟩ => ⟨S2048x128, .f32⟩
  | .hbm, ⟨101, _⟩ => ⟨S2048x3, .f32⟩
  | .hbm, ⟨102, _⟩ => ⟨S1x3, .f32⟩
  | .hbm, ⟨103, _⟩ => ⟨S2048x3, .f32⟩
  | .hbm, ⟨104, _⟩ => ⟨S2048x3, .f32⟩
  | _, _ => ⟨S100000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_12 : Ref sig .tc := ⟨.hbm, 92, rfl⟩
abbrev main_v65 : Ref sig .tc := ⟨.hbm, 93, rfl⟩
abbrev main_v66 : Ref sig .tc := ⟨.hbm, 94, rfl⟩
abbrev main_c_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S2048 : S_.BroadcastsInDim S2048 (![] : Fin 0 → Fin S2048.rank)
  bcast_S2048_S2048x1_0 : S2048.BroadcastsInDim S2048x1 (![0] : Fin 1 → Fin S2048x1.rank)
  bcast_S3_S1x3_1 : S3.BroadcastsInDim S1x3 (![1] : Fin 1 → Fin S1x3.rank)
  bcast_S1x3_S2048x3_0_1 : S1x3.BroadcastsInDim S2048x3 (![0, 1] : Fin 2 → Fin S2048x3.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x300_S300x128_S100000x128_1_0_0_1_n_n_wf : DotDims.WF S100000x300 S300x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  gather_S100000x128_S2048x1_S2048x128_1_0_n_n_0_1_1128_wf : GatherDims.WF S100000x128 S2048x1 S2048x128 [1] [0] [] [0] [] 1 ![1, 128]
  dot_S2048x128_S128x3_S2048x3_1_0_0_1_n_n_wf : DotDims.WF S2048x128 S128x3 S2048x3 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x300_S300x128_S100000x128_1_0_0_1_n_n : DotDims S100000x300 S300x128 S100000x128 where
  lhsContracting := [1]
  rhsContracting := [0]
  lhsNonContracting := [0]
  rhsNonContracting := [1]
  lhsBatch := []
  rhsBatch := []
  wf := dot_S100000x300_S300x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S2048x1_S2048x128_1_0_n_n_0_1_1128 : GatherDims S100000x128 S2048x1 S2048x128 where
  offsetDims := [1]
  collapsedSliceDims := [0]
  operandBatchingDims := []
  startIndicesBatchingDims := []
  startIndexMap := [0]
  indexVectorDim := 1
  sliceSizes := ![1, 128]
  wf := gather_S100000x128_S2048x1_S2048x128_1_0_n_n_0_1_1128_wf
def dot_S2048x128_S128x3_S2048x3_1_0_0_1_n_n : DotDims S2048x128 S128x3 S2048x3 where
  lhsContracting := [1]
  rhsContracting := [0]
  lhsNonContracting := [0]
  rhsNonContracting := [1]
  lhsBatch := []
  rhsBatch := []
  wf := dot_S2048x128_S128x3_S2048x3_1_0_0_1_n_n_wf

class Facts : Prop extends Facts₀ where

variable [Facts]
-- ==== Proof.KernelRun.lean ====
/-
  The kernel's program, run, with its RESULT named.

  @main is three tiled matrix products among stretches of host operations. Its run goes from one boundary to the next:
  a host stretch takes every buffer from the boundary's contents to the fold of its operations over them, a product
  leaves its result array at what its write-backs leave and every other buffer alone. After the last stretch every
  buffer the program does not scope — the arguments and the result among them — holds the last boundary's contents:
  `Gen.W10`. So every weakly fair execution terminates, nothing faulting, with the result buffer at `Gen.W10` read at the
  result's reference and the arguments as launched. What `Gen.W10` holds there is a separate, pure question
  (KernelFold.lean).
-/
import proofs.«110753_j36120674959481_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched: the segments of the program run one after the other, the last thread
    state — every unscoped buffer at `W10` — read against the final memory. -/
theorem run : θ_run defs (onTc (τ := τ) (main (F := F))) ⟨m, fun _ => 0, ρ⟩ (fun r => ∀ c : Dev nD,
      r.2.mem ((c.tc : Thread nD τ).loc main_v75) = W10 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v75 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.Whole

end
-- ==== Proof.Gcn.lean ====
/-
  The function both programs compute: a two-layer graph convolution followed by a linear classifier on 2048 chosen
  nodes, with the three DENSE PRODUCTS left as parameters.

  The graph has 100000 nodes and 1600000 directed edges `(src e, dst e)`, to which one self-loop per node is added
  (`srcIds`, `dstIds`: the edge list's two rows, each followed by 0 … 99999). With `deg n` the number of edges into `n`
  (`degree`: a scatter-add of ones, so at least 1), `d n = 1/sqrt (deg n)` where `deg n > 0` and `0` elsewhere
  (`invSqrtDegree`), and the edge weight `norm e = d (src e) · d (dst e)` (`edgeWeight`), one propagation step takes node
  features `h : [100000, 128]` to

      (aggregate h) n  =  Σ_{e : dst e = n}  h (src e) · norm e        (a gather by `src`, a scaling, a scatter-add by `dst`).

  The network is then, for products `f0 f1 f2`:

      h1  = max (aggregate (f0 x W1) + b1, 0)
      h2  = aggregate (f1 h1 W2) + b2
      out = f2 (h2 at the 2048 chosen nodes) Wc + bc.

  Every piece is written with the host operations both printed programs use, in the order they use them, over any float
  instance `F`: the kernel's program and the reference are this one term with their own three products put in, so nothing
  about the gathers, the scatter-adds, the reciprocal square root or the integer index arithmetic (jnp's wrap of a
  negative index, `wrap`) ever has to be opened.
-/
import proofs.«110753_j36120674959481_1_alg».proof.KernelIdeal

noncomputable section

namespace Cert.Gcn

open Idealize.ShloMosaic Cert.KernelIdeal Cert.KernelIdeal.Facts₀

variable {F : FTy → Type} [FloatOps F] [Cert.KernelIdeal.Facts]

/-- The sources of all edges: row 0 of the edge list, then one self-loop per node. -/
def srcIds (ei : IVec S2x1600000 32) : IVec S1700000 32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The targets of all edges: row 1 of the edge list, then one self-loop per node. -/
def dstIds (ei : IVec S2x1600000 32) : IVec S1700000 32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- jnp's reading of a node id used as an index: a negative id counts from the end (`id + 100000`); as a column. -/
def wrap (v : IVec S1700000 32) : IVec S1700000x1 32 :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- The in-degree of every node, self-loop included: ones added at the targets. -/
def degree (ei : IVec S2x1600000 32) : FVec F S100000 .f32 :=
  Host.scatterAdd scatter_S100000_S1700000x1_S1700000_n_0_0_1 (broadcastInDim S100000 ![] bcast_S_S100000 (constant (F := F) S_ .f32 0x00000000#32)) (broadcastInDim S1700000x1 ![0] bcast_S1700000_S1700000x1_0 (dstIds ei)) (broadcastInDim S1700000 ![] bcast_S_S1700000 (constant (F := F) S_ .f32 0x3F800000#32))

/-- `1/sqrt (deg n)` where `deg n > 0`, and `0` elsewhere. -/
def invSqrtDegree (ei : IVec S2x1600000 32) : FVec F S100000 .f32 :=
  select (cmpf (F := F) .ogt (degree ei) (broadcastInDim S100000 ![] bcast_S_S100000 (constant (F := F) S_ .f32 0x00000000#32))) (Host.rsqrt (degree (F := F) ei)) (broadcastInDim S100000 ![] bcast_S_S100000 (id (constant (F := F) S_ .f32 0x00000000#32)))

/-- The weight of every edge: `d (src e) · d (dst e)`. -/
def edgeWeight (ei : IVec S2x1600000 32) : FVec F S1700000 .f32 :=
  mulf (Host.gather gather_S100000_S1700000x1_S1700000_n_0_n_n_0_1_1 (invSqrtDegree (F := F) ei) (wrap (srcIds ei))) (Host.gather gather_S100000_S1700000x1_S1700000_n_0_n_n_0_1_1 (invSqrtDegree (F := F) ei) (wrap (dstIds ei)))

/-- One propagation step: row `n` of the result is `Σ_{e : dst e = n} h (src e) · norm e`. -/
def aggregate (h : FVec F S100000x128 .f32) (ei : IVec S2x1600000 32) : FVec F S100000x128 .f32 :=
  Host.scatterAdd scatter_S100000x128_S1700000x1_S1700000x128_1_0_0_1 (broadcastInDim S100000x128 ![] bcast_S_S100000x128 (constant (F := F) S_ .f32 0x00000000#32)) (broadcastInDim S1700000x1 ![0] bcast_S1700000_S1700000x1_0 (dstIds ei)) (mulf (Host.gather gather_S100000x128_S1700000x1_S1700000x128_1_0_n_n_0_1_1128 h (wrap (srcIds ei))) (broadcastInDim S1700000x128 ![0, 1] bcast_S1700000x1_S1700000x128_0_1 (broadcastInDim S1700000x1 ![0] bcast_S1700000_S1700000x1_0 (edgeWeight (F := F) ei))))

/-- A bias vector added to every row. -/
def addBias (h : FVec F S100000x128 .f32) (b : FVec F S128 .f32) : FVec F S100000x128 .f32 :=
  addf h (broadcastInDim S100000x128 ![0, 1] bcast_S1x128_S100000x128_0_1 (broadcastInDim S1x128 ![1] bcast_S128_S1x128_1 b))

/-- The first layer after its product `xw = x · W1`: propagate, add the bias, clamp at zero from below. -/
def layer1 (xw : FVec F S100000x128 .f32) (ei : IVec S2x1600000 32) (b1 : FVec F S128 .f32) : FVec F S100000x128 .f32 :=
  maximumf (addBias (aggregate xw ei) b1) (broadcastInDim S100000x128 ![] bcast_S_S100000x128 (constant (F := F) S_ .f32 0x00000000#32))

/-- The second layer after its product `hw = h1 · W2`: propagate, add the bias, and keep the 2048 chosen nodes' rows
    (their ids read as jnp reads an index). -/
def layer2 (hw : FVec F S100000x128 .f32) (ei : IVec S2x1600000 32) (b2 : FVec F S128 .f32) (ai : IVec S2048 32) : FVec F S2048x128 .f32 :=
  Host.gather gather_S100000x128_S2048x1_S2048x128_1_0_n_n_0_1_1128 (addBias (aggregate hw ei) b2) (broadcastInDim S2048x1 ![0] bcast_S2048_S2048x1_0 (select (cmpi .slt ai (broadcastInDim S2048 ![] bcast_S_S2048 (constantI S_ 32 0#32))) (addi ai (broadcastInDim S2048 ![] bcast_S_S2048 (constantI S_ 32 100000#32))) ai))

/-- The classifier after its product `y = emb · Wc`: the bias added to every row. -/
def head (y : FVec F S2048x3 .f32) (bc : FVec F S3 .f32) : FVec F S2048x3 .f32 :=
  addf y (broadcastInDim S2048x3 ![0, 1] bcast_S1x3_S2048x3_0_1 (broadcastInDim S1x3 ![1] bcast_S3_S1x3_1 bc))

/-- The whole network over the three products `f0`, `f1`, `f2`. -/
def net (f0 : FVec F S100000x300 .f32 → FVec F S300x128 .f32 → FVec F S100000x128 .f32)
    (f1 : FVec F S100000x128 .f32 → FVec F S128x128 .f32 → FVec F S100000x128 .f32)
    (f2 : FVec F S2048x128 .f32 → FVec F S128x3 .f32 → FVec F S2048x3 .f32)
    (x : FVec F S100000x300 .f32) (ei : IVec S2x1600000 32) (ai : IVec S2048 32)
    (W1 : FVec F S300x128 .f32) (b1 : FVec F S128 .f32) (W2 : FVec F S128x128 .f32) (b2 : FVec F S128 .f32)
    (Wc : FVec F S128x3 .f32) (bc : FVec F S3 .f32) : FVec F S2048x3 .f32 :=
  head (f2 (layer2 (f1 (layer1 (f0 x W1) ei b1) W2) ei b2 ai) Wc) bc

end Cert.Gcn

end
-- ==== Proof.KernelFold.lean ====
/-
  What the kernel's program holds in its result buffer after the last host stretch, as a pure term.

  The boundary contents `Gen.W0 … Gen.W10` are a fold through @main: a host stretch applies its operations in order, a
  tiled product replaces its result array by what its write-backs leave. Reading the fold at one buffer composes the
  operations that feed it. Three kinds of values cross the products' boundaries: the two edge-id vectors and the edge
  weights (computed once, before the first product, and read by both propagation steps), the arguments (never written),
  and each product's result. With each product's result array given as ANY function `f0`, `f1`, `f2` of the two arrays the
  product reads (hypotheses `h0`, `h1`, `h2`, for every entry contents), the result buffer ends at `Cert.Gcn.net f0 f1 f2`
  of the arguments. No float operation is opened: the statement is over any float instance.
-/
import proofs.«110753_j36120674959481_1_alg».proof.Proof.Gen.KernelIdeal.Frame
import proofs.«110753_j36120674959481_1_alg».proof.Proof.Gcn

set_option maxRecDepth 16384

noncomputable section

namespace Cert.KernelIdeal.Whole

open Cert.KernelIdeal Cert.KernelIdeal.Gen
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg) (c : Dev nD)

/-! ## Before the first product: the edge ids, the edge weights, the arguments -/

theorem W3_main_v3 : W3 m ρ c (Proc.devRef .tc main_v3) = Cert.Gcn.srcIds (m ((c : Thread nD τ).loc main_arg1)) := by
  show StableHlo.after hostOps0_2 (StableHlo.after hostOps0_1 (StableHlo.after hostOps0 (W0 m ρ c))) (Proc.devRef .tc main_v3) = _
  after_results_simp <;> rfl

theorem W3_main_v6 : W3 m ρ c (Proc.devRef .tc main_v6) = Cert.Gcn.dstIds (m ((c : Thread nD τ).loc main_arg1)) := by
  show StableHlo.after hostOps0_2 (StableHlo.after hostOps0_1 (StableHlo.after hostOps0 (W0 m ρ c))) (Proc.devRef .tc main_v6) = _
  after_results_simp <;> rfl

theorem W3_main_v29 : W3 m ρ c (Proc.devRef .tc main_v29) = Cert.Gcn.edgeWeight (F := F) (m ((c : Thread nD τ).loc main_arg1)) := by
  show StableHlo.after hostOps0_2 (StableHlo.after hostOps0_1 (StableHlo.after hostOps0 (W0 m ρ c))) (Proc.devRef .tc main_v29) = _
  after_results_simp <;> rfl

theorem W3_main_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl

theorem W3_main_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl

theorem W3_main_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl

theorem W3_main_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl

theorem W3_main_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl

theorem W3_main_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl

theorem W3_main_arg7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp <;> rfl

theorem W3_main_arg8 : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  after_results_simp <;> rfl

/-! ## The three products as parameters -/

variable (f0 : FVec F S100000x300 .f32 → FVec F S300x128 .f32 → FVec F S100000x128 .f32)
  (f1 : FVec F S100000x128 .f32 → FVec F S128x128 .f32 → FVec F S100000x128 .f32)
  (f2 : FVec F S2048x128 .f32 → FVec F S128x3 .f32 → FVec F S2048x3 .f32)

/-! ## Across the first product, through the first layer's host stretch -/

theorem W4_main_v30
    (h0 : ∀ (V : (c : Dev nD) → (b : Ref sig .tc) → Buf (Elt F) ((c : Thread nD τ).loc b)) (c : Dev nD),
      (dat0 (F := F) V c).arrAt 2 cfg0.N = f0 (V c main_arg0) (V c main_arg3)) :
    W4 m ρ c (Proc.devRef .tc main_v30) = f0 (m ((c : Thread nD τ).loc main_arg0)) (m ((c : Thread nD τ).loc main_arg3)) := by
  have e : W4 m ρ c (Proc.devRef .tc main_v30) = f0 (W3 m ρ c (Proc.devRef .tc main_arg0)) (W3 m ρ c (Proc.devRef .tc main_arg3)) :=
    (W4_arr m ρ c 2).trans (h0 (V3 m ρ) c)
  rw [e, W3_main_arg0, W3_main_arg3]

theorem W4_main_v3 : W4 m ρ c (Proc.devRef .tc main_v3) = Cert.Gcn.srcIds (m ((c : Thread nD τ).loc main_arg1)) :=
  (W4_of_ne m ρ c main_v3 (by decide)).trans (W3_main_v3 m ρ c)

theorem W4_main_v6 : W4 m ρ c (Proc.devRef .tc main_v6) = Cert.Gcn.dstIds (m ((c : Thread nD τ).loc main_arg1)) :=
  (W4_of_ne m ρ c main_v6 (by decide)).trans (W3_main_v6 m ρ c)

theorem W4_main_v29 : W4 m ρ c (Proc.devRef .tc main_v29) = Cert.Gcn.edgeWeight (F := F) (m ((c : Thread nD τ).loc main_arg1)) :=
  (W4_of_ne m ρ c main_v29 (by decide)).trans (W3_main_v29 m ρ c)

theorem W4_main_arg2 : W4 m ρ c (Proc.devRef .tc main_arg2) = m ((c : Thread nD τ).loc main_arg2) :=
  (W4_of_ne m ρ c main_arg2 (by decide)).trans (W3_main_arg2 m ρ c)

theorem W4_main_arg4 : W4 m ρ c (Proc.devRef .tc main_arg4) = m ((c : Thread nD τ).loc main_arg4) :=
  (W4_of_ne m ρ c main_arg4 (by decide)).trans (W3_main_arg4 m ρ c)

theorem W4_main_arg5 : W4 m ρ c (Proc.devRef .tc main_arg5) = m ((c : Thread nD τ).loc main_arg5) :=
  (W4_of_ne m ρ c main_arg5 (by decide)).trans (W3_main_arg5 m ρ c)

theorem W4_main_arg6 : W4 m ρ c (Proc.devRef .tc main_arg6) = m ((c : Thread nD τ).loc main_arg6) :=
  (W4_of_ne m ρ c main_arg6 (by decide)).trans (W3_main_arg6 m ρ c)

theorem W4_main_arg7 : W4 m ρ c (Proc.devRef .tc main_arg7) = m ((c : Thread nD τ).loc main_arg7) :=
  (W4_of_ne m ρ c main_arg7 (by decide)).trans (W3_main_arg7 m ρ c)

theorem W4_main_arg8 : W4 m ρ c (Proc.devRef .tc main_arg8) = m ((c : Thread nD τ).loc main_arg8) :=
  (W4_of_ne m ρ c main_arg8 (by decide)).trans (W3_main_arg8 m ρ c)

theorem W6_main_v47
    (h0 : ∀ (V : (c : Dev nD) → (b : Ref sig .tc) → Buf (Elt F) ((c : Thread nD τ).loc b)) (c : Dev nD),
      (dat0 (F := F) V c).arrAt 2 cfg0.N = f0 (V c main_arg0) (V c main_arg3)) :
    W6 m ρ c (Proc.devRef .tc main_v47) = Cert.Gcn.layer1 (f0 (m ((c : Thread nD τ).loc main_arg0)) (m ((c : Thread nD τ).loc main_arg3))) (m ((c : Thread nD τ).loc main_arg1)) (m ((c : Thread nD τ).loc main_arg4)) := by
  show StableHlo.after hostOps1_1 (StableHlo.after hostOps1 (W4 m ρ c)) (Proc.devRef .tc main_v47) = _
  after_results_simp
  rw [W4_main_v30 m ρ c f0 h0, W4_main_v3, W4_main_v29, W4_main_v6, W4_main_arg4]
  rfl

theorem W6_main_v3 : W6 m ρ c (Proc.devRef .tc main_v3) = Cert.Gcn.srcIds (m ((c : Thread nD τ).loc main_arg1)) := by
  show StableHlo.after hostOps1_1 (StableHlo.after hostOps1 (W4 m ρ c)) (Proc.devRef .tc main_v3) = _
  after_results_simp
  exact W4_main_v3 m ρ c

theorem W6_main_v6 : W6 m ρ c (Proc.devRef .tc main_v6) = Cert.Gcn.dstIds (m ((c : Thread nD τ).loc main_arg1)) := by
  show StableHlo.after hostOps1_1 (StableHlo.after hostOps1 (W4 m ρ c)) (Proc.devRef .tc main_v6) = _
  after_results_simp
  exact W4_main_v6 m ρ c

theorem W6_main_v29 : W6 m ρ c (Proc.devRef .tc main_v29) = Cert.Gcn.edgeWeight (F := F) (m ((c : Thread nD τ).loc main_arg1)) := by
  show StableHlo.after hostOps1_1 (StableHlo.after hostOps1 (W4 m ρ c)) (Proc.devRef .tc main_v29) = _
  after_results_simp
  exact W4_main_v29 m ρ c

theorem W6_main_arg2 : W6 m ρ c (Proc.devRef .tc main_arg2) = m ((c : Thread nD τ).loc main_arg2) := by
  show StableHlo.after hostOps1_1 (StableHlo.after hostOps1 (W4 m ρ c)) (Proc.devRef .tc main_arg2) = _
  after_results_simp
  exact W4_main_arg2 m ρ c

theorem W6_main_arg5 : W6 m ρ c (Proc.devRef .tc main_arg5) = m ((c : Thread nD τ).loc main_arg5) := by
  show StableHlo.after hostOps1_1 (StableHlo.after hostOps1 (W4 m ρ c)) (Proc.devRef .tc main_arg5) = _
  after_results_simp
  exact W4_main_arg5 m ρ c

theorem W6_main_arg6 : W6 m ρ c (Proc.devRef .tc main_arg6) = m ((c : Thread nD τ).loc main_arg6) := by
  show StableHlo.after hostOps1_1 (StableHlo.after hostOps1 (W4 m ρ c)) (Proc.devRef .tc main_arg6) = _
  after_results_simp
  exact W4_main_arg6 m ρ c

theorem W6_main_arg7 : W6 m ρ c (Proc.devRef .tc main_arg7) = m ((c : Thread nD τ).loc main_arg7) := by
  show StableHlo.after hostOps1_1 (StableHlo.after hostOps1 (W4 m ρ c)) (Proc.devRef .tc main_arg7) = _
  after_results_simp
  exact W4_main_arg7 m ρ c

theorem W6_main_arg8 : W6 m ρ c (Proc.devRef .tc main_arg8) = m ((c : Thread nD τ).loc main_arg8) := by
  show StableHlo.after hostOps1_1 (StableHlo.after hostOps1 (W4 m ρ c)) (Proc.devRef .tc main_arg8) = _
  after_results_simp
  exact W4_main_arg8 m ρ c

/-! ## Across the second product, through the second layer's host stretch -/

theorem W7_main_v48 (h0 : ∀ (V : (c : Dev nD) → (b : Ref sig .tc) → Buf (Elt F) ((c : Thread nD τ).loc b)) (c : Dev nD),
      (dat0 (F := F) V c).arrAt 2 cfg0.N = f0 (V c main_arg0) (V c main_arg3))
    (h1 : ∀ (V : (c : Dev nD) → (b : Ref sig .tc) → Buf (Elt F) ((c : Thread nD τ).loc b)) (c : Dev nD),
      (dat1 (F := F) V c).arrAt 2 cfg1.N = f1 (V c main_v47) (V c main_arg5)) :
    W7 m ρ c (Proc.devRef .tc main_v48) = f1 (Cert.Gcn.layer1 (f0 (m ((c : Thread nD τ).loc main_arg0)) (m ((c : Thread nD τ).loc main_arg3))) (m ((c : Thread nD τ).loc main_arg1)) (m ((c : Thread nD τ).loc main_arg4))) (m ((c : Thread nD τ).loc main_arg5)) := by
  have e : W7 m ρ c (Proc.devRef .tc main_v48) = f1 (W6 m ρ c (Proc.devRef .tc main_v47)) (W6 m ρ c (Proc.devRef .tc main_arg5)) :=
    (W7_arr m ρ c 2).trans (h1 (V6 m ρ) c)
  rw [e, W6_main_v47 m ρ c f0 h0, W6_main_arg5]

theorem W7_main_v3 : W7 m ρ c (Proc.devRef .tc main_v3) = Cert.Gcn.srcIds (m ((c : Thread nD τ).loc main_arg1)) :=
  (W7_of_ne m ρ c main_v3 (by decide)).trans (W6_main_v3 m ρ c)

theorem W7_main_v6 : W7 m ρ c (Proc.devRef .tc main_v6) = Cert.Gcn.dstIds (m ((c : Thread nD τ).loc main_arg1)) :=
  (W7_of_ne m ρ c main_v6 (by decide)).trans (W6_main_v6 m ρ c)

theorem W7_main_v29 : W7 m ρ c (Proc.devRef .tc main_v29) = Cert.Gcn.edgeWeight (F := F) (m ((c : Thread nD τ).loc main_arg1)) :=
  (W7_of_ne m ρ c main_v29 (by decide)).trans (W6_main_v29 m ρ c)

theorem W7_main_arg2 : W7 m ρ c (Proc.devRef .tc main_arg2) = m ((c : Thread nD τ).loc main_arg2) :=
  (W7_of_ne m ρ c main_arg2 (by decide)).trans (W6_main_arg2 m ρ c)

theorem W7_main_arg6 : W7 m ρ c (Proc.devRef .tc main_arg6) = m ((c : Thread nD τ).loc main_arg6) :=
  (W7_of_ne m ρ c main_arg6 (by decide)).trans (W6_main_arg6 m ρ c)

theorem W7_main_arg7 : W7 m ρ c (Proc.devRef .tc main_arg7) = m ((c : Thread nD τ).loc main_arg7) :=
  (W7_of_ne m ρ c main_arg7 (by decide)).trans (W6_main_arg7 m ρ c)

theorem W7_main_arg8 : W7 m ρ c (Proc.devRef .tc main_arg8) = m ((c : Thread nD τ).loc main_arg8) :=
  (W7_of_ne m ρ c main_arg8 (by decide)).trans (W6_main_arg8 m ρ c)

theorem W8_main_v71 (h0 : ∀ (V : (c : Dev nD) → (b : Ref sig .tc) → Buf (Elt F) ((c : Thread nD τ).loc b)) (c : Dev nD),
      (dat0 (F := F) V c).arrAt 2 cfg0.N = f0 (V c main_arg0) (V c main_arg3))
    (h1 : ∀ (V : (c : Dev nD) → (b : Ref sig .tc) → Buf (Elt F) ((c : Thread nD τ).loc b)) (c : Dev nD),
      (dat1 (F := F) V c).arrAt 2 cfg1.N = f1 (V c main_v47) (V c main_arg5)) :
    W8 m ρ c (Proc.devRef .tc main_v71) = Cert.Gcn.layer2 (f1 (Cert.Gcn.layer1 (f0 (m ((c : Thread nD τ).loc main_arg0)) (m ((c : Thread nD τ).loc main_arg3))) (m ((c : Thread nD τ).loc main_arg1)) (m ((c : Thread nD τ).loc main_arg4))) (m ((c : Thread nD τ).loc main_arg5))) (m ((c : Thread nD τ).loc main_arg1)) (m ((c : Thread nD τ).loc main_arg6)) (m ((c : Thread nD τ).loc main_arg2)) := by
  show StableHlo.after hostOps2 (W7 m ρ c) (Proc.devRef .tc main_v71) = _
  after_results_simp
  rw [W7_main_v48 m ρ c f0 f1 h0 h1, W7_main_v3, W7_main_v29, W7_main_v6, W7_main_arg6, W7_main_arg2]
  rfl

theorem W8_main_arg7 : W8 m ρ c (Proc.devRef .tc main_arg7) = m ((c : Thread nD τ).loc main_arg7) := by
  show StableHlo.after hostOps2 (W7 m ρ c) (Proc.devRef .tc main_arg7) = _
  after_results_simp
  exact W7_main_arg7 m ρ c

theorem W8_main_arg8 : W8 m ρ c (Proc.devRef .tc main_arg8) = m ((c : Thread nD τ).loc main_arg8) := by
  show StableHlo.after hostOps2 (W7 m ρ c) (Proc.devRef .tc main_arg8) = _
  after_results_simp
  exact W7_main_arg8 m ρ c

/-! ## Across the third product, through the last host stretch -/

theorem W9_main_v72 (h0 : ∀ (V : (c : Dev nD) → (b : Ref sig .tc) → Buf (Elt F) ((c : Thread nD τ).loc b)) (c : Dev nD),
      (dat0 (F := F) V c).arrAt 2 cfg0.N = f0 (V c main_arg0) (V c main_arg3))
    (h1 : ∀ (V : (c : Dev nD) → (b : Ref sig .tc) → Buf (Elt F) ((c : Thread nD τ).loc b)) (c : Dev nD),
      (dat1 (F := F) V c).arrAt 2 cfg1.N = f1 (V c main_v47) (V c main_arg5))
    (h2 : ∀ (V : (c : Dev nD) → (b : Ref sig .tc) → Buf (Elt F) ((c : Thread nD τ).loc b)) (c : Dev nD),
      (dat2 (F := F) V c).arrAt 2 cfg2.N = f2 (V c main_v71) (V c main_arg7)) :
    W9 m ρ c (Proc.devRef .tc main_v72) = f2 (Cert.Gcn.layer2 (f1 (Cert.Gcn.layer1 (f0 (m ((c : Thread nD τ).loc main_arg0)) (m ((c : Thread nD τ).loc main_arg3))) (m ((c : Thread nD τ).loc main_arg1)) (m ((c : Thread nD τ).loc main_arg4))) (m ((c : Thread nD τ).loc main_arg5))) (m ((c : Thread nD τ).loc main_arg1)) (m ((c : Thread nD τ).loc main_arg6)) (m ((c : Thread nD τ).loc main_arg2))) (m ((c : Thread nD τ).loc main_arg7)) := by
  have e : W9 m ρ c (Proc.devRef .tc main_v72) = f2 (W8 m ρ c (Proc.devRef .tc main_v71)) (W8 m ρ c (Proc.devRef .tc main_arg7)) :=
    (W9_arr m ρ c 2).trans (h2 (V8 m ρ) c)
  rw [e, W8_main_v71 m ρ c f0 f1 h0 h1, W8_main_arg7]

theorem W9_main_arg8 : W9 m ρ c (Proc.devRef .tc main_arg8) = m ((c : Thread nD τ).loc main_arg8) :=
  (W9_of_ne m ρ c main_arg8 (by decide)).trans (W8_main_arg8 m ρ c)

/-- THE RESULT BUFFER after the last stretch: the network over the three products, of the arguments as launched. -/
theorem result (h0 : ∀ (V : (c : Dev nD) → (b : Ref sig .tc) → Buf (Elt F) ((c : Thread nD τ).loc b)) (c : Dev nD),
      (dat0 (F := F) V c).arrAt 2 cfg0.N = f0 (V c main_arg0) (V c main_arg3))
    (h1 : ∀ (V : (c : Dev nD) → (b : Ref sig .tc) → Buf (Elt F) ((c : Thread nD τ).loc b)) (c : Dev nD),
      (dat1 (F := F) V c).arrAt 2 cfg1.N = f1 (V c main_v47) (V c main_arg5))
    (h2 : ∀ (V : (c : Dev nD) → (b : Ref sig .tc) → Buf (Elt F) ((c : Thread nD τ).loc b)) (c : Dev nD),
      (dat2 (F := F) V c).arrAt 2 cfg2.N = f2 (V c main_v71) (V c main_arg7)) :
    W10 m ρ c (Proc.devRef .tc main_v75)
      = Cert.Gcn.net f0 f1 f2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3 (W9 m ρ c) (Proc.devRef .tc main_v75) = _
  after_results_simp
  rw [W9_main_v72 m ρ c f0 f1 f2 h0 h1 h2, W9_main_arg8]
  rfl

end Cert.KernelIdeal.Whole

end
-- ==== Proof.LibMatmulEntry.lean ====
/-
  A `tpu.matmul` of two rank-2 operands into the zero accumulator, read at ONE ENTRY of its result at the ideal values,
  as a plain sum over `Fin K` of the two operands' entries — for the two layouts a dense layer meets:

  * `matmul_rows_cols`: `[M, K] × [K, N] → [M, N]`, contracting the left operand's axis 1 with the right operand's
    axis 0 (rows times columns): entry `(p, q)` is `Σ_k a[p, k] · b[k, q]`;
  * `matmul_cols_rows`: `[K, N] × [M, K] → [N, M]`, contracting the left operand's axis 0 with the right operand's
    axis 1 (both operands transposed): entry `(q, p)` is `Σ_k a[k, q] · b[p, k]`.

  Each is stated for ANY dimension-number record with those six lists, whatever its name and well-formedness proof, and
  for any extents and operand formats. The contraction's own index type is re-indexed to `Fin K` through its one
  coordinate; on an axis that is not contracted an operand's index is the result index's coordinate, which is what the
  two small lemmas on `DotDims.lhsIdx` / `rhsIdx` say.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left axis that is kept (not batch, not contracted) the left operand's index is the result index's coordinate at
    that axis's position among the result's axes. -/
theorem lhsIdx_val_of_kept {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- Rows times columns: `[M, K] × [K, N] → [M, N]` into the zero accumulator, at entry `(p, q)`. -/
theorem matmul_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q)
      = ∑ k : Fin K, a (ix2 p k) * b (ix2 k q) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 k q := by
    funext ax
    refine Fin.ext ?_
    match ax with
    | ⟨0, _⟩ =>
      exact (D.rhsIdx_val_of_single (cr := (0 : Fin 2)) hrc _ _).trans (contrEquiv1_symm_val D K hr hs k)
    | ⟨1, _⟩ =>
      exact D.rhsIdx_val_of_kept (a := (1 : Fin 2)) (by rw [hrb]; exact List.not_mem_nil) (by rw [hrn]; exact List.mem_singleton.mpr rfl)
        _ _ 1 Nat.one_lt_two (by rw [hlb, hln, hrn]; rfl)
  rw [ea, eb]

/-- Both operands transposed: `[K, N] × [M, K] → [N, M]` into the zero accumulator, at entry `(q, p)`. -/
theorem matmul_cols_rows {M K N : Nat} {φ₁ φ₂ : FTy} (D : DotDims ⟨2, ![K, N]⟩ ⟨2, ![M, K]⟩ ⟨2, ![N, M]⟩)
    (hlb : D.lhsBatch = []) (hln : D.lhsNonContracting = [1]) (hlc : D.lhsContracting = [0])
    (hrb : D.rhsBatch = []) (hrn : D.rhsNonContracting = [0]) (hrc : D.rhsContracting = [1])
    (prec : Option ContractPrecision) (a : FVec Ideal ⟨2, ![K, N]⟩ φ₁) (b : FVec Ideal ⟨2, ![M, K]⟩ φ₂)
    (q : Fin N) (p : Fin M) :
    FloatOps.matmul D prec a b (constant ⟨2, ![N, M]⟩ .f32 0x00000000#32) (ix2 q p)
      = ∑ k : Fin K, a (ix2 k q) * b (ix2 p k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 q p) ((contrEquiv1 D K hr hs).symm k) = ix2 k q := by
    funext ax
    refine Fin.ext ?_
    match ax with
    | ⟨0, _⟩ =>
      exact (D.lhsIdx_val_of_single (cl := (0 : Fin 2)) hlc _ _).trans (contrEquiv1_symm_val D K hr hs k)
    | ⟨1, _⟩ =>
      exact D.lhsIdx_val_of_kept (a := (1 : Fin 2)) (by rw [hlb]; exact List.not_mem_nil) (by rw [hln]; exact List.mem_singleton.mpr rfl)
        _ _ 0 Nat.zero_lt_two (by rw [hlb, hln]; rfl)
  have eb : D.rhsIdx (ix2 q p) ((contrEquiv1 D K hr hs).symm k) = ix2 p k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.LibDotGeneralEntry.lean ====
/-
  The host's `dot_general` of two rank-2 operands, `[M, K] × [K, N] → [M, N]` contracting the left operand's axis 1 with
  the right operand's axis 0, read at ONE ENTRY of its result at the ideal values: entry `(p, q)` is
  `Σ_k a[p, k] · b[k, q]`, a plain sum over `Fin K`, whatever the schedule key — stated for ANY dimension-number record
  with those six lists, any extents and operand formats.

  At the ideal values the host product and a `tpu.matmul` into the zero accumulator are the same sum over the
  contraction's index type, so the entry form of the matrix product (LibMatmulEntry) carries over.
-/
import proofs.«110753_j36120674959481_1_alg».proof.Proof.LibMatmulEntry

noncomputable section

open scoped BigOperators

namespace Idealize.ShloMosaic.Ideal

open Idealize.ShloMosaic.ValueIdx

/-- Rows times columns on the host: `[M, K] × [K, N] → [M, N]`, at entry `(p, q)`. -/
theorem dotGeneral_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (sched : HostSchedule) (a : FVec Ideal ⟨2, ![M, K]⟩ φ₁) (b : FVec Ideal ⟨2, ![K, N]⟩ φ₂)
    (p : Fin M) (q : Fin N) :
    FloatOps.dotGeneral D prec sched a b (ix2 p q) = ∑ k : Fin K, a (ix2 p k) * b (ix2 k q) :=
  ((dotGeneral_apply D prec sched a b (ix2 p q)).trans (matmul_constant_zero_apply D prec a b (ix2 p q)).symm).trans
    (matmul_rows_cols D hlb hln hlc hrb hrn hrc prec a b p q)

end Idealize.ShloMosaic.Ideal

end
-- ==== Proof.MatmulTiles.lean ====
/-
  A row tile of a matrix product.

  Cut the rows of `x : [M, K]` into tiles of `R` consecutive rows. The product of ONE tile with `w : [K, N]`, taken by a
  matrix unit into the zero accumulator, holds at its entry `(p, q)` what the product of the WHOLE matrices holds at the
  entry `(r, q)`, `r` the tile's row `p` counted in `x`: both are `Σ_k x[r, k] · w[k, q]`, a sum over the same `Fin K` in
  which only row `r` of `x` and column `q` of `w` occur. Nothing is asked of the entries: the two sums are the same sum of
  the same extended reals, term by term, so no finiteness is needed.

  The statement takes the tile and the right operand as ANY arrays that agree with `x` and `w` on that row and that
  column, and the two dimension-number records as any records with the six lists of a rows-times-columns product.
-/
import proofs.«110753_j36120674959481_1_alg».proof.Proof.LibDotGeneralEntry

noncomputable section

open scoped BigOperators

namespace Cert.Tiles

open Idealize.ShloMosaic Idealize.ShloMosaic.ValueIdx

/-- Entry `(p, q)` of a tile's product into the zero accumulator is entry `(r, q)` of the host's product of the whole
    matrices, when the tile's row `p` is row `r` of `x` (`hx`) and the right operands agree down column `q` (`hw`). -/
theorem tile_entry {M K N R : Nat} {φ₁ φ₂ ψ₁ ψ₂ : FTy}
    (Db : DotDims ⟨2, ![R, K]⟩ ⟨2, ![K, N]⟩ ⟨2, ![R, N]⟩) (Dw : DotDims ⟨2, ![M, K]⟩ ⟨2, ![K, N]⟩ ⟨2, ![M, N]⟩)
    (b1 : Db.lhsBatch = []) (b2 : Db.lhsNonContracting = [0]) (b3 : Db.lhsContracting = [1])
    (b4 : Db.rhsBatch = []) (b5 : Db.rhsNonContracting = [1]) (b6 : Db.rhsContracting = [0])
    (w1 : Dw.lhsBatch = []) (w2 : Dw.lhsNonContracting = [0]) (w3 : Dw.lhsContracting = [1])
    (w4 : Dw.rhsBatch = []) (w5 : Dw.rhsNonContracting = [1]) (w6 : Dw.rhsContracting = [0])
    (prec prec' : Option ContractPrecision) (sched : HostSchedule)
    (xb : FVec Ideal ⟨2, ![R, K]⟩ φ₁) (wb : FVec Ideal ⟨2, ![K, N]⟩ φ₂)
    (x : FVec Ideal ⟨2, ![M, K]⟩ ψ₁) (w : FVec Ideal ⟨2, ![K, N]⟩ ψ₂)
    (p : Fin R) (q : Fin N) (r : Fin M)
    (hx : ∀ k : Fin K, (xb (ix2 p k) : EReal) = x (ix2 r k)) (hw : ∀ k : Fin K, (wb (ix2 k q) : EReal) = w (ix2 k q)) :
    FloatOps.matmul Db prec xb wb (constant ⟨2, ![R, N]⟩ .f32 0x00000000#32) (ix2 p q)
      = FloatOps.dotGeneral Dw prec' sched x w (ix2 r q) := by
  rw [Ideal.matmul_rows_cols Db b1 b2 b3 b4 b5 b6, Ideal.dotGeneral_rows_cols Dw w1 w2 w3 w4 w5 w6]
  exact Finset.sum_congr rfl fun k _ => by rw [hx k, hw k]

end Cert.Tiles

end
-- ==== Proof.Product0.lean ====
/-
  The first tiled product: node features times the first layer's weights, `[100000, 300] × [300, 128]`.

  The pipeline cuts the 100000 rows of `x` into 20 tiles of 5000 consecutive rows; grid point `t` is handed rows
  `5000·t … 5000·t + 4999` of `x` and the whole of `w`, multiplies them on the matrix unit into a zero accumulator (the
  change of float format in front of it is the identity on extended reals) and writes the [5000, 128] result back as rows
  `5000·t …` of the result array. Entry `(p, q)` of that tile is `Σ_k x[5000·t + p, k] · w[k, q]`, which is entry
  `(5000·t + p, q)` of the host's product of the whole matrices (MatmulTiles.lean). The tiles cover every row once (row
  `r` lies in tile `r / 5000`), so after the last point the result array IS the host's product of the two arrays the
  region found at its entry — whatever those are (`V` is any entry contents).
-/
import proofs.«110753_j36120674959481_1_alg».proof.Proof.Gen.KernelIdeal.Frame
import proofs.«110753_j36120674959481_1_alg».proof.Proof.MatmulTiles
import Idealize.ShloMosaic.Lib.Pipeline.Value
import Idealize.ShloMosaic.Lib.ValueIdx

set_option maxRecDepth 16384

noncomputable section

namespace Cert.KernelIdeal.Product0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The host's product of the two arrays the region reads, as it finds them at its entry. -/
abbrev whole (Dw : DotDims S100000x300 S300x128 S100000x128) (c : Dev nD) : FVec Ideal S100000x128 .f32 :=
  Host.dotGeneral (F := Ideal) (φ₁ := .f32) (φ₂ := .f32) Dw none (V c main_arg0 : FVec Ideal S100000x300 .f32) (V c main_arg3 : FVec Ideal S300x128 .f32)

theorem hz : (![0, 0] : Fin 2 → Nat) = fun _ => 0 := funext fun a => by fin_cases a <;> rfl

/-- What the body stores, at an entry: row `p` of the tile against column `q` of the right operand, which is entry
    `(r, q)` of the whole product when the tile's row `p` is row `r` of `X`. -/
theorem pay_entry (Dw : DotDims S100000x300 S300x128 S100000x128)
    (w1 : Dw.lhsBatch = []) (w2 : Dw.lhsNonContracting = [0]) (w3 : Dw.lhsContracting = [1])
    (w4 : Dw.rhsBatch = []) (w5 : Dw.rhsNonContracting = [1]) (w6 : Dw.rhsContracting = [0])
    (x0 : Vec Ideal S5000x300 .f32) (x1 : Vec Ideal S300x128 .f32)
    (X : FVec Ideal S100000x300 .f32) (W : FVec Ideal S300x128 .f32) (p : Fin 5000) (q : Fin 128) (r : Fin 100000)
    (hx : ∀ k : Fin 300, (x0 (ix2 p k) : EReal) = X (ix2 r k)) (hw : ∀ k : Fin 300, (x1 (ix2 k q) : EReal) = W (ix2 k q)) :
    k0_pay1 x0 x1 (ix2 p q) = Host.dotGeneral (F := Ideal) (φ₁ := .f32) (φ₂ := .f32) Dw none X W (ix2 r q) := by
  unfold k0_pay1
  exact Cert.Tiles.tile_entry dot_S5000x300_S300x128_S5000x128_1_0_0_1_n_n Dw rfl rfl rfl rfl rfl rfl w1 w2 w3 w4 w5 w6 none none .single _ _ X W p q r hx hw

/-- The printed index maps over the grid: the tile of `x` and the tile of the result move down with the point, the right
    operand stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the host's product of the two arrays as the region finds them. -/
theorem flushed_eq (Dw : DotDims S100000x300 S300x128 S100000x128)
    (w1 : Dw.lhsBatch = []) (w2 : Dw.lhsNonContracting = [0]) (w3 : Dw.lhsContracting = [1])
    (w4 : Dw.rhsBatch = []) (w5 : Dw.rhsNonContracting = [1]) (w6 : Dw.rhsContracting = [0])
    (c : Dev nD) (t : Fin cfg0.N) :
    (dat0 V c).flushed 2 t = ((cfg0.win 2).blk t).view.read (Elt Ideal) (whole V Dw c) := by
  show (cfg0.win 2).cut (grid0.coords t) ((dat0 V c).after 2 t) = _
  rw [after0_2]
  unfold out0_2
  rw [View.canon_unit_zero hz]
  simp only [View.ld_unit_zero (S := S5000x300) hz, View.ld_unit_zero (S := S300x128) hz]
  obtain ⟨e00, e01, e10, e11, e20, e21⟩ := idx_facts t
  have ht : t.val < 20 := lt_of_lt_of_eq t.isLt N_0
  funext j
  obtain ⟨p, q, rfl⟩ : ∃ (p : Fin 5000) (q : Fin 128), j = ix2 p q := ⟨j 0, j 1, eq_ix2 j⟩
  have hr : t.val * 5000 + p.val < 100000 := by have := p.isLt; omega
  show k0_pay1 (iblk0 V c 0 t) (iblk0 V c 1 t) (ix2 p q)
    = whole V Dw c (((cfg0.win 2).blk t).view.emb (ix2 p q))
  have hemb : ((cfg0.win 2).blk t).view.emb (ix2 p q) = ix2 (⟨t.val * 5000 + p.val, hr⟩ : Fin 100000) q := by
    funext a; apply Fin.ext
    match a with
    | ⟨0, _⟩ => show win0_2.index t (0 : Fin 2) * 5000 + 1 * p.val = t.val * 5000 + p.val; rw [e20]; omega
    | ⟨1, _⟩ => show win0_2.index t (1 : Fin 2) * 128 + 1 * q.val = q.val; rw [e21]; omega
  rw [hemb]
  refine pay_entry Dw w1 w2 w3 w4 w5 w6 (iblk0 V c 0 t) (iblk0 V c 1 t) (V c main_arg0) (V c main_arg3) p q ⟨_, hr⟩ (fun k => ?_) (fun k => ?_)
  · show V c main_arg0 (((cfg0.win 0).blk t).view.emb (ix2 p k)) = V c main_arg0 (ix2 (⟨t.val * 5000 + p.val, hr⟩ : Fin 100000) k)
    congr 1; funext a; apply Fin.ext
    match a with
    | ⟨0, _⟩ => show win0_0.index t (0 : Fin 2) * 5000 + 1 * p.val = t.val * 5000 + p.val; rw [e00]; omega
    | ⟨1, _⟩ => show win0_0.index t (1 : Fin 2) * 300 + 1 * k.val = k.val; rw [e01]; omega
  · show V c main_arg3 (((cfg0.win 1).blk t).view.emb (ix2 k q)) = V c main_arg3 (ix2 k q)
    congr 1; funext a; apply Fin.ext
    match a with
    | ⟨0, _⟩ => show win0_1.index t (0 : Fin 2) * 300 + 1 * k.val = k.val; rw [e10]; omega
    | ⟨1, _⟩ => show win0_1.index t (1 : Fin 2) * 128 + 1 * q.val = q.val; rw [e11]; omega

/-- An index of the result array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every row of the result array lies in some point's tile: row `r` in tile `r / 5000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e00, e01, e10, e11, e20, e21⟩ := idx_facts t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    rw [e20]; show (i 0).val / 5000 * 5000 ≤ (i 0).val ∧ (i 0).val < (i 0).val / 5000 * 5000 + 5000; omega
  | ⟨1, _⟩ =>
    show win0_2.index t (1 : Fin 2) * 128 ≤ (i 1).val ∧ (i 1).val < win0_2.index t (1 : Fin 2) * 128 + 128
    rw [e21]; omega

/-- THE RESULT ARRAY after the region: the host's product of the two arrays the region read, for any entry contents. -/
theorem value (Dw : DotDims S100000x300 S300x128 S100000x128)
    (w1 : Dw.lhsBatch = []) (w2 : Dw.lhsNonContracting = [0]) (w3 : Dw.lhsContracting = [1])
    (w4 : Dw.rhsBatch = []) (w5 : Dw.rhsNonContracting = [1]) (w6 : Dw.rhsContracting = [0])
    (c : Dev nD) : (dat0 V c).arrAt 2 cfg0.N = whole V Dw c :=
  (dat0 V c).arrAt_eq_of_cover 2 (whole V Dw c)
    (fun t _ => flushed_eq V Dw w1 w2 w3 w4 w5 w6 c t) cover

end Cert.KernelIdeal.Product0

end
-- ==== Proof.Product1.lean ====
/-
  The second tiled product: the first layer's output times the second layer's weights, `[100000, 128] × [128, 128]`.

  The pipeline cuts the 100000 rows of `x` into 20 tiles of 5000 consecutive rows; grid point `t` is handed rows
  `5000·t … 5000·t + 4999` of `x` and the whole of `w`, multiplies them on the matrix unit into a zero accumulator (the
  change of float format in front of it is the identity on extended reals) and writes the [5000, 128] result back as rows
  `5000·t …` of the result array. Entry `(p, q)` of that tile is `Σ_k x[5000·t + p, k] · w[k, q]`, which is entry
  `(5000·t + p, q)` of the host's product of the whole matrices (MatmulTiles.lean). The tiles cover every row once (row
  `r` lies in tile `r / 5000`), so after the last point the result array IS the host's product of the two arrays the
  region found at its entry — whatever those are (`V` is any entry contents).
-/
import proofs.«110753_j36120674959481_1_alg».proof.Proof.Gen.KernelIdeal.Frame
import proofs.«110753_j36120674959481_1_alg».proof.Proof.MatmulTiles
import Idealize.ShloMosaic.Lib.Pipeline.Value
import Idealize.ShloMosaic.Lib.ValueIdx

set_option maxRecDepth 16384

noncomputable section

namespace Cert.KernelIdeal.Product1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The host's product of the two arrays the region reads, as it finds them at its entry. -/
abbrev whole (Dw : DotDims S100000x128 S128x128 S100000x128) (c : Dev nD) : FVec Ideal S100000x128 .f32 :=
  Host.dotGeneral (F := Ideal) (φ₁ := .f32) (φ₂ := .f32) Dw none (V c main_v47 : FVec Ideal S100000x128 .f32) (V c main_arg5 : FVec Ideal S128x128 .f32)

theorem hz : (![0, 0] : Fin 2 → Nat) = fun _ => 0 := funext fun a => by fin_cases a <;> rfl

/-- What the body stores, at an entry: row `p` of the tile against column `q` of the right operand, which is entry
    `(r, q)` of the whole product when the tile's row `p` is row `r` of `X`. -/
theorem pay_entry (Dw : DotDims S100000x128 S128x128 S100000x128)
    (w1 : Dw.lhsBatch = []) (w2 : Dw.lhsNonContracting = [0]) (w3 : Dw.lhsContracting = [1])
    (w4 : Dw.rhsBatch = []) (w5 : Dw.rhsNonContracting = [1]) (w6 : Dw.rhsContracting = [0])
    (x0 : Vec Ideal S5000x128 .f32) (x1 : Vec Ideal S128x128 .f32)
    (X : FVec Ideal S100000x128 .f32) (W : FVec Ideal S128x128 .f32) (p : Fin 5000) (q : Fin 128) (r : Fin 100000)
    (hx : ∀ k : Fin 128, (x0 (ix2 p k) : EReal) = X (ix2 r k)) (hw : ∀ k : Fin 128, (x1 (ix2 k q) : EReal) = W (ix2 k q)) :
    k1_pay1 x0 x1 (ix2 p q) = Host.dotGeneral (F := Ideal) (φ₁ := .f32) (φ₂ := .f32) Dw none X W (ix2 r q) := by
  unfold k1_pay1
  rw [shapeCast_self]
  exact Cert.Tiles.tile_entry dot_S5000x128_S128x128_S5000x128_1_0_0_1_n_n Dw rfl rfl rfl rfl rfl rfl w1 w2 w3 w4 w5 w6 none none .single _ _ X W p q r hx hw

/-- The printed index maps over the grid: the tile of `x` and the tile of the result move down with the point, the right
    operand stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` of the host's product of the two arrays as the region finds them. -/
theorem flushed_eq (Dw : DotDims S100000x128 S128x128 S100000x128)
    (w1 : Dw.lhsBatch = []) (w2 : Dw.lhsNonContracting = [0]) (w3 : Dw.lhsContracting = [1])
    (w4 : Dw.rhsBatch = []) (w5 : Dw.rhsNonContracting = [1]) (w6 : Dw.rhsContracting = [0])
    (c : Dev nD) (t : Fin cfg1.N) :
    (dat1 V c).flushed 2 t = ((cfg1.win 2).blk t).view.read (Elt Ideal) (whole V Dw c) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨e00, e01, e10, e11, e20, e21⟩ := idx_facts t
  have ht : t.val < 20 := lt_of_lt_of_eq t.isLt N_1
  funext j
  obtain ⟨p, q, rfl⟩ : ∃ (p : Fin 5000) (q : Fin 128), j = ix2 p q := ⟨j 0, j 1, eq_ix2 j⟩
  have hr : t.val * 5000 + p.val < 100000 := by have := p.isLt; omega
  show k1_pay1 (iblk1 V c 0 t) (iblk1 V c 1 t) (ix2 p q)
    = whole V Dw c (((cfg1.win 2).blk t).view.emb (ix2 p q))
  have hemb : ((cfg1.win 2).blk t).view.emb (ix2 p q) = ix2 (⟨t.val * 5000 + p.val, hr⟩ : Fin 100000) q := by
    funext a; apply Fin.ext
    match a with
    | ⟨0, _⟩ => show win1_2.index t (0 : Fin 2) * 5000 + 1 * p.val = t.val * 5000 + p.val; rw [e20]; omega
    | ⟨1, _⟩ => show win1_2.index t (1 : Fin 2) * 128 + 1 * q.val = q.val; rw [e21]; omega
  rw [hemb]
  refine pay_entry Dw w1 w2 w3 w4 w5 w6 (iblk1 V c 0 t) (iblk1 V c 1 t) (V c main_v47) (V c main_arg5) p q ⟨_, hr⟩ (fun k => ?_) (fun k => ?_)
  · show V c main_v47 (((cfg1.win 0).blk t).view.emb (ix2 p k)) = V c main_v47 (ix2 (⟨t.val * 5000 + p.val, hr⟩ : Fin 100000) k)
    congr 1; funext a; apply Fin.ext
    match a with
    | ⟨0, _⟩ => show win1_0.index t (0 : Fin 2) * 5000 + 1 * p.val = t.val * 5000 + p.val; rw [e00]; omega
    | ⟨1, _⟩ => show win1_0.index t (1 : Fin 2) * 128 + 1 * k.val = k.val; rw [e01]; omega
  · show V c main_arg5 (((cfg1.win 1).blk t).view.emb (ix2 k q)) = V c main_arg5 (ix2 k q)
    congr 1; funext a; apply Fin.ext
    match a with
    | ⟨0, _⟩ => show win1_1.index t (0 : Fin 2) * 128 + 1 * k.val = k.val; rw [e10]; omega
    | ⟨1, _⟩ => show win1_1.index t (1 : Fin 2) * 128 + 1 * q.val = q.val; rw [e11]; omega

/-- An index of the result array is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v48).slice (win1_2.rect t)).set ↔ _
  rw [View.set_slice_whole, Rect.mem_set_unit]
  exact Iff.rfl

/-- Every row of the result array lies in some point's tile: row `r` in tile `r / 5000`. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e00, e01, e10, e11, e20, e21⟩ := idx_facts t
  refine ⟨t, flush1_2 t, ?_⟩
  rw [mem_blk]
  intro a
  match a with
  | ⟨0, _⟩ =>
    show win1_2.index t (0 : Fin 2) * 5000 ≤ (i 0).val ∧ (i 0).val < win1_2.index t (0 : Fin 2) * 5000 + 5000
    rw [e20]; show (i 0).val / 5000 * 5000 ≤ (i 0).val ∧ (i 0).val < (i 0).val / 5000 * 5000 + 5000; omega
  | ⟨1, _⟩ =>
    show win1_2.index t (1 : Fin 2) * 128 ≤ (i 1).val ∧ (i 1).val < win1_2.index t (1 : Fin 2) * 128 + 128
    rw [e21]; omega

/-- THE RESULT ARRAY after the region: the host's product of the two arrays the region read, for any entry contents. -/
theorem value (Dw : DotDims S100000x128 S128x128 S100000x128)
    (w1 : Dw.lhsBatch = []) (w2 : Dw.lhsNonContracting = [0]) (w3 : Dw.lhsContracting = [1])
    (w4 : Dw.rhsBatch = []) (w5 : Dw.rhsNonContracting = [1]) (w6 : Dw.rhsContracting = [0])
    (c : Dev nD) : (dat1 V c).arrAt 2 cfg1.N = whole V Dw c :=
  (dat1 V c).arrAt_eq_of_cover 2 (whole V Dw c)
    (fun t _ => flushed_eq V Dw w1 w2 w3 w4 w5 w6 c t) cover

end Cert.KernelIdeal.Product1

end
-- ==== Proof.Product2.lean ====
/-
  The third product: the 2048 chosen nodes' embeddings times the classifier's weights, `[2048, 128] × [128, 3]`, in one tile.

  The pipeline cuts the 2048 rows of `x` into 1 tile of 2048 consecutive rows; grid point `t` is handed rows
  `2048·t … 2048·t + 2047` of `x` and the whole of `w`, multiplies them on the matrix unit into a zero accumulator (the
  change of float format in front of it is the identity on extended reals) and writes the [2048, 3] result back as rows
  `2048·t …` of the result array. Entry `(p, q)` of that tile is `Σ_k x[2048·t + p, k] · w[k, q]`, which is entry
  `(2048·t + p, q)` of the host's product of the whole matrices (MatmulTiles.lean). The tiles cover every row once (row
  `r` lies in tile `r / 2048`), so after the last point the result array IS the host's product of the two arrays the
  region found at its entry — whatever those are (`V` is any entry contents).
-/
import proofs.«110753_j36120674959481_1_alg».proof.Proof.Gen.KernelIdeal.Frame
import proofs.«110753_j36120674959481_1_alg».proof.Proof.MatmulTiles
import Idealize.ShloMosaic.Lib.Pipeline.Value
import Idealize.ShloMosaic.Lib.ValueIdx

set_option maxRecDepth 16384

noncomputable section

namespace Cert.KernelIdeal.Product2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The host's product of the two arrays the region reads, as it finds them at its entry. -/
abbrev whole (Dw : DotDims S2048x128 S128x3 S2048x3) (c : Dev nD) : FVec Ideal S2048x3 .f32 :=
  Host.dotGeneral (F := Ideal) (φ₁ := .f32) (φ₂ := .f32) Dw none (V c main_v71 : FVec Ideal S2048x128 .f32) (V c main_arg7 : FVec Ideal S128x3 .f32)

theorem hz : (![0, 0] : Fin 2 → Nat) = fun _ => 0 := funext fun a => by fin_cases a <;> rfl

/-- What the body stores, at an entry: row `p` of the tile against column `q` of the right operand, which is entry
    `(r, q)` of the whole product when the tile's row `p` is row `r` of `X`. -/
theorem pay_entry (Dw : DotDims S2048x128 S128x3 S2048x3)
    (w1 : Dw.lhsBatch = []) (w2 : Dw.lhsNonContracting = [0]) (w3 : Dw.lhsContracting = [1])
    (w4 : Dw.rhsBatch = []) (w5 : Dw.rhsNonContracting = [1]) (w6 : Dw.rhsContracting = [0])
    (x0 : Vec Ideal S2048x128 .f32) (x1 : Vec Ideal S128x3 .f32)
    (X : FVec Ideal S2048x128 .f32) (W : FVec Ideal S128x3 .f32) (p : Fin 2048) (q : Fin 3) (r : Fin 2048)
    (hx : ∀ k : Fin 128, (x0 (ix2 p k) : EReal) = X (ix2 r k)) (hw : ∀ k : Fin 128, (x1 (ix2 k q) : EReal) = W (ix2 k q)) :
    k2_pay1 x0 x1 (ix2 p q) = Host.dotGeneral (F := Ideal) (φ₁ := .f32) (φ₂ := .f32) Dw none X W (ix2 r q) := by
  unfold k2_pay1
  rw [shapeCast_self]
  exact Cert.Tiles.tile_entry dot_S2048x128_S128x3_S2048x3_1_0_0_1_n_n Dw rfl rfl rfl rfl rfl rfl w1 w2 w3 w4 w5 w6 none none .single _ _ X W p q r hx hw

/-- The printed index maps over the grid: the tile of `x` and the tile of the result move down with the point, the right
    operand stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT `t` WRITES BACK is block `t` of the host's product of the two arrays as the region finds them. -/
theorem flushed_eq (Dw : DotDims S2048x128 S128x3 S2048x3)
    (w1 : Dw.lhsBatch = []) (w2 : Dw.lhsNonContracting = [0]) (w3 : Dw.lhsContracting = [1])
    (w4 : Dw.rhsBatch = []) (w5 : Dw.rhsNonContracting = [1]) (w6 : Dw.rhsContracting = [0])
    (c : Dev nD) (t : Fin cfg2.N) :
    (dat2 V c).flushed 2 t = ((cfg2.win 2).blk t).view.read (Elt Ideal) (whole V Dw c) := by
  show (cfg2.win 2).cut (grid2.coords t) ((dat2 V c).after 2 t) = _
  rw [after2_2]
  unfold out2_2
  rw [View.canon_unit_zero hz]
  simp only [View.ld_unit_zero (S := S2048x128) hz, View.ld_unit_zero (S := S128x3) hz]
  obtain ⟨e00, e01, e10, e11, e20, e21⟩ := idx_facts t
  have ht : t.val < 1 := lt_of_lt_of_eq t.isLt N_2
  funext j
  obtain ⟨p, q, rfl⟩ : ∃ (p : Fin 2048) (q : Fin 3), j = ix2 p q := ⟨j 0, j 1, eq_ix2 j⟩
  have hr : t.val * 2048 + p.val < 2048 := by have := p.isLt; omega
  show k2_pay1 (iblk2 V c 0 t) (iblk2 V c 1 t) (ix2 p q)
    = whole V Dw c (((cfg2.win 2).blk t).view.emb (ix2 p q))
  have hemb : ((cfg2.win 2).blk t).view.emb (ix2 p q) = ix2 (⟨t.val * 2048 + p.val, hr⟩ : Fin 2048) q := by
    funext a; apply Fin.ext
    match a with
    | ⟨0, _⟩ => show win2_2.index t (0 : Fin 2) * 2048 + 1 * p.val = t.val * 2048 + p.val; rw [e20]; omega
    | ⟨1, _⟩ => show win2_2.index t (1 : Fin 2) * 3 + 1 * q.val = q.val; rw [e21]; omega
  rw [hemb]
  refine pay_entry Dw w1 w2 w3 w4 w5 w6 (iblk2 V c 0 t) (iblk2 V c 1 t) (V c main_v71) (V c main_arg7) p q ⟨_, hr⟩ (fun k => ?_) (fun k => ?_)
  · show V c main_v71 (((cfg2.win 0).blk t).view.emb (ix2 p k)) = V c main_v71 (ix2 (⟨t.val * 2048 + p.val, hr⟩ : Fin 2048) k)
    congr 1; funext a; apply Fin.ext
    match a with
    | ⟨0, _⟩ => show win2_0.index t (0 : Fin 2) * 2048 + 1 * p.val = t.val * 2048 + p.val; rw [e00]; omega
    | ⟨1, _⟩ => show win2_0.index t (1 : Fin 2) * 128 + 1 * k.val = k.val; rw [e01]; omega
  · show V c main_arg7 (((cfg2.win 1).blk t).view.emb (ix2 k q)) = V c main_arg7 (ix2 k q)
    congr 1; funext a; apply Fin.ext
    match a with
    | ⟨0, _⟩ => show win2_1.index t (0 : Fin 2) * 128 + 1 * k.val = k.val; rw [e10]; omega
    | ⟨1, _⟩ => show win2_1.index t (1 : Fin 2) * 3 + 1 * q.val = q.val; rw [e11]; omega

/-- An index of the result array is in point `t`'s block iff each coordinate is in the block's range on its axis. -/
theorem mem_blk (t : Fin cfg2.N) (i : S2048x3.Idx) :
    i ∈ ((cfg2.win 2).blk t).view.set ↔ ∀ a : Fin 2, win2_2.index t a * S2048x3.size a ≤ (i a).val ∧ (i a).val < win2_2.index t a * S2048x3.size a + S2048x3.size a := by
  show i ∈ ((View.whole main_v72).slice (win2_2.rect t)).set ↔ _
  rw [View.set_slice_whole, Rect.mem_set_unit]
  exact Iff.rfl

/-- Every row of the result array lies in some point's tile: row `r` in tile `r / 2048`. -/
theorem cover (i : S2048x3.Idx) : ∃ t : Fin cfg2.N, (cfg2.win 2).flush t = true ∧ i ∈ ((cfg2.win 2).blk t).view.set := by
  have hi0 : (i 0).val < 2048 := (i 0).isLt
  have hi1 : (i 1).val < 3 := (i 1).isLt
  have hN : cfg2.N = 1 := N_2
  let t : Fin cfg2.N := ⟨(i 0).val / 2048, by rw [hN]; omega⟩
  obtain ⟨e00, e01, e10, e11, e20, e21⟩ := idx_facts t
  refine ⟨t, flush2_2 t, ?_⟩
  rw [mem_blk]
  intro a
  match a with
  | ⟨0, _⟩ =>
    show win2_2.index t (0 : Fin 2) * 2048 ≤ (i 0).val ∧ (i 0).val < win2_2.index t (0 : Fin 2) * 2048 + 2048
    rw [e20]; show (i 0).val / 2048 * 2048 ≤ (i 0).val ∧ (i 0).val < (i 0).val / 2048 * 2048 + 2048; omega
  | ⟨1, _⟩ =>
    show win2_2.index t (1 : Fin 2) * 3 ≤ (i 1).val ∧ (i 1).val < win2_2.index t (1 : Fin 2) * 3 + 3
    rw [e21]; omega

/-- THE RESULT ARRAY after the region: the host's product of the two arrays the region read, for any entry contents. -/
theorem value (Dw : DotDims S2048x128 S128x3 S2048x3)
    (w1 : Dw.lhsBatch = []) (w2 : Dw.lhsNonContracting = [0]) (w3 : Dw.lhsContracting = [1])
    (w4 : Dw.rhsBatch = []) (w5 : Dw.rhsNonContracting = [1]) (w6 : Dw.rhsContracting = [0])
    (c : Dev nD) : (dat2 V c).arrAt 2 cfg2.N = whole V Dw c :=
  (dat2 V c).arrAt_eq_of_cover 2 (whole V Dw c)
    (fun t _ => flushed_eq V Dw w1 w2 w3 w4 w5 w6 c t) cover

end Cert.KernelIdeal.Product2

end
-- ==== Proof.RefNet.lean ====
/-
  The reference's result is the network with the host's own three products.

  The reference program is a straight line of host operations; its run ends with the result buffer at the operations'
  composed term of the arguments (RefRun.lean). That term is `Cert.Gcn.net` with the host's `dot_general` — rows of the
  left operand against columns of the right — put in for each of the three products: the same operations in the same
  order, the edge ids and the edge weights written out at each of their uses instead of being computed once. Over any
  float instance, so that nothing is evaluated.
-/
import proofs.«110753_j36120674959481_1_alg».proof.Proof.RefRun
import proofs.«110753_j36120674959481_1_alg».proof.Proof.Gcn
import proofs.«110753_j36120674959481_1_alg».proof.Proof.Gen.KernelIdeal

set_option maxRecDepth 16384

noncomputable section

namespace Cert.ReferenceIdeal.Net

open Cert.ReferenceIdeal Cert.ReferenceIdeal.Gen
open Idealize.ShloMosaic Idealize.ShloMosaic.TcCoe Idealize.SL.Sem

variable {F : FTy → Type} [FloatOps F]

/-- The host's product of the node features with the first layer's weights. -/
abbrev prod0 : FVec F Cert.KernelIdeal.S100000x300 .f32 → FVec F Cert.KernelIdeal.S300x128 .f32 → FVec F Cert.KernelIdeal.S100000x128 .f32 :=
  Host.dotGeneral (F := F) (φ₁ := .f32) (φ₂ := .f32) dot_S100000x300_S300x128_S100000x128_1_0_0_1_n_n none
/-- The host's product of the first layer's output with the second layer's weights. -/
abbrev prod1 : FVec F Cert.KernelIdeal.S100000x128 .f32 → FVec F Cert.KernelIdeal.S128x128 .f32 → FVec F Cert.KernelIdeal.S100000x128 .f32 :=
  Host.dotGeneral (F := F) (φ₁ := .f32) (φ₂ := .f32) dot_S100000x128_S128x128_S100000x128_1_0_0_1_n_n none
/-- The host's product of the chosen nodes' embeddings with the classifier's weights. -/
abbrev prod2 : FVec F Cert.KernelIdeal.S2048x128 .f32 → FVec F Cert.KernelIdeal.S128x3 .f32 → FVec F Cert.KernelIdeal.S2048x3 .f32 :=
  Host.dotGeneral (F := F) (φ₁ := .f32) (φ₂ := .f32) dot_S2048x128_S128x3_S2048x3_1_0_0_1_n_n none

/-- The reference run's result term is the network over the host's three products, of the arguments as launched. -/
theorem res_eq (m : (ℓ : Loc nD τ sig) → Buf (Elt F) ℓ) (c : Dev nD) :
    Cert.ReferenceIdeal.ValueP.res_main_v75 m c
      = Cert.Gcn.net (F := F) prod0 prod1 prod2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Cert.ReferenceIdeal.ValueP.res_main_v75
  rfl

end Cert.ReferenceIdeal.Net

end
-- ==== Proof.Claims.lean ====
/-
  The five claims.

  At the ideal values both programs end with the result buffer at ONE term: the two-layer graph convolution and classifier
  `Cert.Gcn.net` over the host's three matrix products, of the arguments.
    * The reference: its run's composed term is that network (RefNet.lean).
    * The kernel's program: its result buffer after the last host stretch is the network over ANY three functions that
      give each tiled product's result array from the two arrays it reads (KernelFold.lean), and each tiled product's
      result array is the host's product of those two arrays — tile by tile the same sums `Σ_k x[r, k] · w[k, q]`
      (Product0.lean, Product1.lean, Product2.lean over MatmulTiles.lean).
  No law of arithmetic beyond "the same sum of the same terms" is used, so the precondition (finite inputs) is never
  opened; the frames are the generated ones, the reference's its run with the result dropped, and the idealization
  rewrote nothing.
-/
import proofs.«110753_j36120674959481_1_alg».proof.Defs
import proofs.«110753_j36120674959481_1_alg».proof.Proof.Gen.Pre_finite_inputs
import proofs.«110753_j36120674959481_1_alg».proof.Proof.Gen.Kernel.Frame
import proofs.«110753_j36120674959481_1_alg».proof.Proof.Gen.KernelIdeal.Frame
import proofs.«110753_j36120674959481_1_alg».proof.Proof.KernelRun
import proofs.«110753_j36120674959481_1_alg».proof.Proof.KernelFold
import proofs.«110753_j36120674959481_1_alg».proof.Proof.Product0
import proofs.«110753_j36120674959481_1_alg».proof.Proof.Product1
import proofs.«110753_j36120674959481_1_alg».proof.Proof.Product2
import proofs.«110753_j36120674959481_1_alg».proof.Proof.RefRun
import proofs.«110753_j36120674959481_1_alg».proof.Proof.RefNet

set_option maxRecDepth 16384

noncomputable section

namespace Cert.Proof.GcnClaims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end at the network over the host's three products, of arguments that agree. -/
theorem algebraic : Cert.algebraic_KernelIdeal_ReferenceIdeal := by
  intro m ρ m' ρ' _ hagree
  refine ⟨fun c => Cert.Gcn.net (F := Ideal) Cert.ReferenceIdeal.Net.prod0 Cert.ReferenceIdeal.Net.prod1 Cert.ReferenceIdeal.Net.prod2
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩)
      (Cert.KernelIdeal.Whole.run (F := Ideal) m ρ)
    exact Cert.KernelIdeal.Whole.result m ρ c Cert.ReferenceIdeal.Net.prod0 Cert.ReferenceIdeal.Net.prod1 Cert.ReferenceIdeal.Net.prod2
      (fun V c => Cert.KernelIdeal.Product0.value V Cert.ReferenceIdeal.dot_S100000x300_S300x128_S100000x128_1_0_0_1_n_n rfl rfl rfl rfl rfl rfl c)
      (fun V c => Cert.KernelIdeal.Product1.value V Cert.ReferenceIdeal.dot_S100000x128_S128x128_S100000x128_1_0_0_1_n_n rfl rfl rfl rfl rfl rfl c)
      (fun V c => Cert.KernelIdeal.Product2.value V Cert.ReferenceIdeal.dot_S2048x128_S128x3_S2048x3_1_0_0_1_n_n rfl rfl rfl rfl rfl rfl c)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8⟩ := hagree c
    rw [Cert.ReferenceIdeal.Net.res_eq, e0, e1, e2, e3, e4, e5, e6, e7, e8]

end Cert.Proof.GcnClaims

end
-- ==== Proof.lean ====
/-
  `Cert.Claim`: a two-layer graph convolution with a linear classifier on 2048 chosen nodes, its three dense products
  tiled over rows on the matrix unit, against the same network with the host's products.

  The host side of the two programs is one and the same line of operations (self-loops, degrees, symmetric normalisation,
  gather / scale / scatter-add propagation, biases, the clamp at zero, the row gather); only the three products differ,
  and a row tile's product on the matrix unit into a zero accumulator holds, entry by entry, the very sums the host's
  product of the whole matrices holds. Proof/Claims.lean has the five claims; the witnesses of the programs' stated side
  conditions are the instances the generated modules prove.
-/
import proofs.«110753_j36120674959481_1_alg».proof.Defs
import proofs.«110753_j36120674959481_1_alg».proof.Proof.Claims
import proofs.«110753_j36120674959481_1_alg».proof.Proof.Gen.Kernel
import proofs.«110753_j36120674959481_1_alg».proof.Proof.Gen.KernelIdeal
import proofs.«110753_j36120674959481_1_alg».proof.Proof.Gen.ReferenceIdeal
import proofs.«110753_j36120674959481_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    GcnClaims.frame_k, GcnClaims.frame_ki, GcnClaims.frame_ri, GcnClaims.preserves, GcnClaims.algebraic⟩

end Cert.Proof

end
